-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S8192x120 .f32
  ∧ IdealRules.sign_bit.Statement Cert.KernelIdeal.S120x120 .f32
  ∧ IdealRules.sign_bit.Statement Cert.KernelIdeal.S8192x120 .f32
  ∧ IdealRules.sign_bit.Statement Cert.KernelIdeal.S120x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1x1x120 : Shape := ⟨4, ![262144, 1, 1, 120]⟩
abbrev S120x1x1x120 : Shape := ⟨4, ![120, 1, 1, 120]⟩
abbrev S1x120 : Shape := ⟨2, ![1, 120]⟩
abbrev S_ : Shape := ⟨0, ![]⟩

class Facts : Prop where
  bcast_S_S262144x1x1x120 : S_.BroadcastsInDim S262144x1x1x120 (![] : Fin 0 → Fin S262144x1x1x120.rank)
  reducesTo_S262144x1x1x120_S_d0_1_2_3 : S262144x1x1x120.ReducesTo [0, 1, 2, 3] S_
  h_S_ : 0 < S_.numel
  bcast_S_S120x1x1x120 : S_.BroadcastsInDim S120x1x1x120 (![] : Fin 0 → Fin S120x1x1x120.rank)
  reducesTo_S120x1x1x120_S_d0_1_2_3 : S120x1x1x120.ReducesTo [0, 1, 2, 3] S_
  bcast_S_S1x120 : S_.BroadcastsInDim S1x120 (![] : Fin 0 → Fin S1x120.rank)
  reducesTo_S1x120_S_d0_1 : S1x120.ReducesTo [0, 1] S_

variable [Facts]

def fn {F : FTy → Type} [FloatOps F] (main_arg0 : FVec F S262144x1x1x120 .f32) (main_arg1 : FVec F S120x1x1x120 .f32) (main_arg2 : FVec F S1x120 .f32) : IVec S_ 1 :=
  let main_v0 : FVec F S262144x1x1x120 .f32 := Host.absf main_arg0
  let main_cst : FVec F S_ .f32 := constant S_ .f32 0x7F800000#32
  let main_v1 : FVec F S262144x1x1x120 .f32 := broadcastInDim S262144x1x1x120 ![] bcast_S_S262144x1x1x120 main_cst
  let main_v2 : IVec S262144x1x1x120 1 := cmpf .olt main_v0 main_v1
  let main_c : IVec S_ 1 := constantI S_ 1 1#1
  let main_v3 : IVec S_ 1 := (fun x v => Host.reduce IntOp.andi x v reducesTo_S262144x1x1x120_S_d0_1_2_3 h_S_) main_v2 main_c
  let main_v4 : FVec F S120x1x1x120 .f32 := Host.absf main_arg1
  let main_cst_0 : FVec F S_ .f32 := constant S_ .f32 0x7F800000#32
  let main_v5 : FVec F S120x1x1x120 .f32 := broadcastInDim S120x1x1x120 ![] bcast_S_S120x1x1x120 main_cst_0
  let main_v6 : IVec S120x1x1x120 1 := cmpf .olt main_v4 main_v5
  let main_c_1 : IVec S_ 1 := constantI S_ 1 1#1
  let main_v7 : IVec S_ 1 := (fun x v => Host.reduce IntOp.andi x v reducesTo_S120x1x1x120_S_d0_1_2_3 h_S_) main_v6 main_c_1
  let main_v8 : IVec S_ 1 := andi main_v3 main_v7
  let main_v9 : FVec F S1x120 .f32 := Host.absf main_arg2
  let main_cst_2 : FVec F S_ .f32 := constant S_ .f32 0x7F800000#32
  let main_v10 : FVec F S1x120 .f32 := broadcastInDim S1x120 ![] bcast_S_S1x120 main_cst_2
  let main_v11 : IVec S1x120 1 := cmpf .olt main_v9 main_v10
  let main_c_3 : IVec S_ 1 := constantI S_ 1 1#1
  let main_v12 : IVec S_ 1 := (fun x v => Host.reduce IntOp.andi x v reducesTo_S1x120_S_d0_1 h_S_) main_v11 main_c_3
  let main_v13 : IVec S_ 1 := andi main_v8 main_v12
  main_v13
-- ==== Kernel.lean ====
abbrev S262144x1x1x120 : Shape := ⟨4, ![262144, 1, 1, 120]⟩
abbrev S120x1x1x120 : Shape := ⟨4, ![120, 1, 1, 120]⟩
abbrev S1x120 : Shape := ⟨2, ![1, 120]⟩
abbrev S262144x120 : Shape := ⟨2, ![262144, 120]⟩
abbrev S120x120 : Shape := ⟨2, ![120, 120]⟩
abbrev S120x1 : Shape := ⟨2, ![120, 1]⟩
abbrev S262144 : Shape := ⟨1, ![262144]⟩
abbrev S8192x120 : Shape := ⟨2, ![8192, 120]⟩
abbrev S8192 : Shape := ⟨1, ![8192]⟩
abbrev S8192x1 : Shape := ⟨2, ![8192, 1]⟩
abbrev S262144x1 : Shape := ⟨2, ![262144, 1]⟩

abbrev nBuf : Space → Nat
  | .hbm => 9
  | .vmem => 6
  | .smem => 0
  | _ => 0

abbrev bufTy : (tb : Table) → Fin (tcTables nBuf tb) → BufTy
  | .hbm, ⟨0, _⟩ => ⟨S262144x1x1x120, .f32⟩
  | .hbm, ⟨1, _⟩ => ⟨S120x1x1x120, .f32⟩
  | .hbm, ⟨2, _⟩ => ⟨S1x120, .f32⟩
  | .hbm, ⟨3, _⟩ => ⟨S262144x120, .f32⟩
  | .hbm, ⟨4, _⟩ => ⟨S120x120, .f32⟩
  | .hbm, ⟨5, _⟩ => ⟨S120x120, .f32⟩
  | .hbm, ⟨6, _⟩ => ⟨S120x1, .f32⟩
  | .hbm, ⟨7, _⟩ => ⟨S262144, .f32⟩
  | .hbm, ⟨8, _⟩ => ⟨S262144x1, .f32⟩
  | .local _ .vmem, ⟨0, _⟩ => ⟨S8192x120, .f32⟩
  | .local _ .vmem, ⟨1, _⟩ => ⟨S8192x120, .f32⟩
  | .local _ .vmem, ⟨2, _⟩ => ⟨S120x120, .f32⟩
  | .local _ .vmem, ⟨3, _⟩ => ⟨S120x1, .f32⟩
  | .local _ .vmem, ⟨4, _⟩ => ⟨S8192, .f32⟩
  | .local _ .vmem, ⟨5, _⟩ => ⟨S8192, .f32⟩
  | _, _ => ⟨S262144x1x1x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x1x1x120_S262144x120 : S262144x1x1x120.ShapeCasts S262144x120
  shapeCasts_S120x1x1x120_S120x120 : S120x1x1x120.ShapeCasts S120x120
  transposes_S120x120_S120x120_1_0 : S120x120.Transposes [1, 0] S120x120
  transposes_S1x120_S120x1_1_0 : S1x120.Transposes [1, 0] S120x1
  inb_S8192x120_S8192x120_0_0 : ∀ a, (![0, 0] : Fin 2 → Nat) a + S8192x120.size a ≤ S8192x120.size a
  h_S8192x120 : 0 < S8192x120.numel
  shapeCasts_S8192x120_S8192x120 : S8192x120.ShapeCasts S8192x120
  bitsLt_bf16_f32 : FTy.bits .bf16 < FTy.bits .f32
  inb_S120x120_S120x120_0_0 : ∀ a, (![0, 0] : Fin 2 → Nat) a + S120x120.size a ≤ S120x120.size a
  h_S120x120 : 0 < S120x120.numel
  shapeCasts_S120x120_S120x120 : S120x120.ShapeCasts S120x120
  inb_S120x1_S120x1_0_0 : ∀ a, (![0, 0] : Fin 2 → Nat) a + S120x1.size a ≤ S120x1.size a
  h_S120x1 : 0 < S120x1.numel
  shapeCasts_S120x1_S120x1 : S120x1.ShapeCasts S120x1
  shapeCasts_S8192x1_S8192 : S8192x1.ShapeCasts S8192
  inb_S8192_S8192_0 : ∀ a, (![0] : Fin 1 → Nat) a + S8192.size a ≤ S8192.size a
  h_S8192 : 0 < S8192.numel
  shapeCasts_S262144_S262144x1 : S262144.ShapeCasts S262144x1
  dot_S8192x120_S120x120_S8192x120_1_0_0_1_n_n_wf : DotDims.WF S8192x120 S120x120 S8192x120 [1] [0] [0] [1] [] []
  dot_S8192x120_S120x1_S8192x1_1_0_0_1_n_n_wf : DotDims.WF S8192x120 S120x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x120.size a ≤ S262144x120.size a
  hwx0_0 : ∀ i : grid0.Coords, EltTy.bits .f32 = 32 ∨ (Rect.block (s := S262144x120) S8192x120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x120.size a ≤ S120x120.size a
  hwx0_1 : ∀ i : grid0.Coords, EltTy.bits .f32 = 32 ∨ (Rect.block (s := S120x120) S120x120.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S120x1.size a ≤ S120x1.size a
  hwx0_2 : ∀ i : grid0.Coords, EltTy.bits .f32 = 32 ∨ (Rect.block (s := S120x1) S120x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S262144.size a
  hwx0_3 : ∀ i : grid0.Coords, EltTy.bits .f32 = 32 ∨ (Rect.block (s := S262144) S8192.size (cc0_transform_3 i) (hinb0_3 i)).WholeWords (EltTy.packing .f32)

variable [Facts₀]

def dot_S8192x120_S120x120_S8192x120_1_0_0_1_n_n : DotDims S8192x120 S120x120 S8192x120 where
  lhsContracting := [1]
  rhsContracting := [0]
  lhsNonContracting := [0]
  rhsNonContracting := [1]
  lhsBatch := []
  rhsBatch := []
  wf := dot_S8192x120_S120x120_S8192x120_1_0_0_1_n_n_wf
def dot_S8192x120_S120x1_S8192x1_1_0_0_1_n_n : DotDims S8192x120 S120x1 S8192x1 where
  lhsContracting := [1]
  rhsContracting := [0]
  lhsNonContracting := [0]
  rhsNonContracting := [1]
  lhsBatch := []
  rhsBatch := []
  wf := dot_S8192x120_S120x1_S8192x1_1_0_0_1_n_n_wf

abbrev win0_0 : Pipeline.Window sig grid0 :=
  Pipeline.Window.ofSpec (Memref.whole main_v0) S8192x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S120x120.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S120x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x1x1x120 : Shape := ⟨4, ![262144, 1, 1, 120]⟩
abbrev S120x1x1x120 : Shape := ⟨4, ![120, 1, 1, 120]⟩
abbrev S1x120 : Shape := ⟨2, ![1, 120]⟩
abbrev S_ : Shape := ⟨0, ![]⟩
abbrev S262144x120 : Shape := ⟨2, ![262144, 120]⟩
abbrev S120x120 : Shape := ⟨2, ![120, 120]⟩
abbrev S262144x1 : Shape := ⟨2, ![262144, 1]⟩

abbrev nBuf : Space → Nat
  | .hbm => 52
  | .vmem => 0
  | .smem => 0
  | _ => 0

abbrev bufTy : (tb : Table) → Fin (tcTables nBuf tb) → BufTy
  | .hbm, ⟨0, _⟩ => ⟨S262144x1x1x120, .f32⟩
  | .hbm, ⟨1, _⟩ => ⟨S120x1x1x120, .f32⟩
  | .hbm, ⟨2, _⟩ => ⟨S1x120, .f32⟩
  | .hbm, ⟨3, _⟩ => ⟨S_, .f32⟩
  | .hbm, ⟨4, _⟩ => ⟨S262144x1x1x120, .f32⟩
  | .hbm, ⟨5, _⟩ => ⟨S262144x1x1x120, .f32⟩
  | .hbm, ⟨6, _⟩ => ⟨S262144x1x1x120, .f32⟩
  | .hbm, ⟨7, _⟩ => ⟨S_, .f32⟩
  | .hbm, ⟨8, _⟩ => ⟨S262144x1x1x120, .f32⟩
  | .hbm, ⟨9, _⟩ => ⟨S262144x1x1x120, .f32⟩
  | .hbm, ⟨10, _⟩ => ⟨S_, .f32⟩
  | .hbm, ⟨11, _⟩ => ⟨S262144x1x1x120, .f32⟩
  | .hbm, ⟨12, _⟩ => ⟨S262144x1x1x120, .f32⟩
  | .hbm, ⟨13, _⟩ => ⟨S_, .f32⟩
  | .hbm, ⟨14, _⟩ => ⟨S120x1x1x120, .f32⟩
  | .hbm, ⟨15, _⟩ => ⟨S120x1x1x120, .f32⟩
  | .hbm, ⟨16, _⟩ => ⟨S120x1x1x120, .f32⟩
  | .hbm, ⟨17, _⟩ => ⟨S_, .f32⟩
  | .hbm, ⟨18, _⟩ => ⟨S120x1x1x120, .f32⟩
  | .hbm, ⟨19, _⟩ => ⟨S120x1x1x120, .f32⟩
  | .hbm, ⟨20, _⟩ => ⟨S_, .f32⟩
  | .hbm, ⟨21, _⟩ => ⟨S120x1x1x120, .f32⟩
  | .hbm, ⟨22, _⟩ => ⟨S120x1x1x120, .f32⟩
  | .hbm, ⟨23, _⟩ => ⟨S262144x120, .f32⟩
  | .hbm, ⟨24, _⟩ => ⟨S120x120, .f32⟩
  | .hbm, ⟨25, _⟩ => ⟨S262144x120, .f32⟩
  | .hbm, ⟨26, _⟩ => ⟨S262144x120, .f32⟩
  | .hbm, ⟨27, _⟩ => ⟨S_, .f32⟩
  | .hbm, ⟨28, _⟩ => ⟨S262144x120, .f32⟩
  | .hbm, ⟨29, _⟩ => ⟨S262144x120, .f32⟩
  | .hbm, ⟨30, _⟩ => ⟨S262144x120, .f32⟩
  | .hbm, ⟨31, _⟩ => ⟨S_, .f32⟩
  | .hbm, ⟨32, _⟩ => ⟨S262144x120, .f32⟩
  | .hbm, ⟨33, _⟩ => ⟨S262144x120, .f32⟩
  | .hbm, ⟨34, _⟩ => ⟨S262144x120, .f32⟩
  | .hbm, ⟨35, _⟩ => ⟨S_, .f32⟩
  | .hbm, ⟨36, _⟩ => ⟨S262144x120, .f32⟩
  | .hbm, ⟨37, _⟩ => ⟨S262144x120, .f32⟩
  | .hbm, ⟨38, _⟩ => ⟨S_, .f32⟩
  | .hbm, ⟨39, _⟩ => ⟨S262144x120, .f32⟩
  | .hbm, ⟨40, _⟩ => ⟨S262144x120, .f32⟩
  | .hbm, ⟨41, _⟩ => ⟨S_, .f32⟩
  | .hbm, ⟨42, _⟩ => ⟨S1x120, .f32⟩
  | .hbm, ⟨43, _⟩ => ⟨S1x120, .f32⟩
  | .hbm, ⟨44, _⟩ => ⟨S1x120, .f32⟩
  | .hbm, ⟨45, _⟩ => ⟨S_, .f32⟩
  | .hbm, ⟨46, _⟩ => ⟨S1x120, .f32⟩
  | .hbm, ⟨47, _⟩ => ⟨S1x120, .f32⟩
  | .hbm, ⟨48, _⟩ => ⟨S_, .f32⟩
  | .hbm, ⟨49, _⟩ => ⟨S1x120, .f32⟩
  | .hbm, ⟨50, _⟩ => ⟨S1x120, .f32⟩
  | .hbm, ⟨51, _⟩ => ⟨S262144x1, .f32⟩
  | _, _ => ⟨S262144x1x1x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S_S262144x1x1x120 : S_.BroadcastsInDim S262144x1x1x120 (![] : Fin 0 → Fin S262144x1x1x120.rank)
  bcast_S_S120x1x1x120 : S_.BroadcastsInDim S120x1x1x120 (![] : Fin 0 → Fin S120x1x1x120.rank)
  shapeCasts_S262144x1x1x120_S262144x120 : S262144x1x1x120.ShapeCasts S262144x120
  shapeCasts_S120x1x1x120_S120x120 : S120x1x1x120.ShapeCasts S120x120
  bcast_S_S262144x120 : S_.BroadcastsInDim S262144x120 (![] : Fin 0 → Fin S262144x120.rank)
  bcast_S_S1x120 : S_.BroadcastsInDim S1x120 (![] : Fin 0 → Fin S1x120.rank)
  dot_S262144x120_S120x120_S262144x120_1_1_0_0_n_n_wf : DotDims.WF S262144x120 S120x120 S262144x120 [1] [1] [0] [0] [] []
  dot_S262144x120_S1x120_S262144x1_1_1_0_0_n_n_wf : DotDims.WF S262144x120 S1x120 S262144x1 [1] [1] [0] [0] [] []

variable [Facts₀]

def dot_S262144x120_S120x120_S262144x120_1_1_0_0_n_n : DotDims S262144x120 S120x120 S262144x120 where
  lhsContracting := [1]
  rhsContracting := [1]
  lhsNonContracting := [0]
  rhsNonContracting := [0]
  lhsBatch := []
  rhsBatch := []
  wf := dot_S262144x120_S120x120_S262144x120_1_1_0_0_n_n_wf
def dot_S262144x120_S1x120_S262144x1_1_1_0_0_n_n : DotDims S262144x120 S1x120 S262144x1 where
  lhsContracting := [1]
  rhsContracting := [1]
  lhsNonContracting := [0]
  rhsNonContracting := [0]
  lhsBatch := []
  rhsBatch := []
  wf := dot_S262144x120_S1x120_S262144x1_1_1_0_0_n_n_wf

class Facts : Prop extends Facts₀ where

variable [Facts]
-- ==== Proof.Spec.lean ====
/-
  A two-layer binarized network, one row at a time, on the extended reals.

  Binarizing a number a is (sign (a - 1/2) + 1) * 1/2: it is 0 below a half, 1/2 at a half and 1 above it.  A row b of
  the input is binarized, multiplied into each of the 120 binarized rows of the first weight (a sum over the 120
  features), squashed by the softsign y / (1 + |y|), binarized again, and multiplied into the one binarized row of the
  second weight (a sum over the 120 hidden units).  The result has one number per input row.
-/
import Idealize.ShloMosaic.PureOps.Ideal.Laws
import Idealize.ShloMosaic.Lib.ValueIdx

noncomputable section

namespace Cert.BinNet

open Idealize.ShloMosaic Idealize.ShloMosaic.ValueIdx

/-- Half of (the sign of u, plus one): 0 for a negative u, 1/2 at zero, 1 for a positive u. -/
def step (u : EReal) : EReal :=
  (Ideal.sign u + Ideal.ofBits .f32 0x3F800000#32) * Ideal.ofBits .f32 0x3F000000#32

/-- The binarization of a: the step of a - 1/2. -/
def bin (a : EReal) : EReal := step (a - Ideal.ofBits .f32 0x3F000000#32)

/-- The softsign y / (1 + |y|), the absolute value being max y (-y). -/
def soft (y : EReal) : EReal := Ideal.div y (Ideal.ofBits .f32 0x3F800000#32 + max y (-y))

/-- Hidden unit o of input row b: the binarized row against the binarized o-th row of the first weight. -/
def hidden (x : (⟨4, ![262144, 1, 1, 120]⟩ : Shape).Idx → EReal) (w : (⟨4, ![120, 1, 1, 120]⟩ : Shape).Idx → EReal)
    (b : Fin 262144) (o : Fin 120) : EReal :=
  ∑ k : Fin 120, bin (x (ix4 b 0 0 k)) * bin (w (ix4 o 0 0 k))

/-- The network's output for input row b: the binarized softsigns of the hidden units against the binarized second weight. -/
def score (x : (⟨4, ![262144, 1, 1, 120]⟩ : Shape).Idx → EReal) (w : (⟨4, ![120, 1, 1, 120]⟩ : Shape).Idx → EReal)
    (l : (⟨2, ![1, 120]⟩ : Shape).Idx → EReal) (b : Fin 262144) : EReal :=
  ∑ o : Fin 120, bin (soft (hidden x w b o)) * bin (l (ix2 0 o))

/-- The outputs as a column, one row per input row. -/
def column (x : (⟨4, ![262144, 1, 1, 120]⟩ : Shape).Idx → EReal) (w : (⟨4, ![120, 1, 1, 120]⟩ : Shape).Idx → EReal)
    (l : (⟨2, ![1, 120]⟩ : Shape).Idx → EReal) : (⟨2, ![262144, 1]⟩ : Shape).Idx → EReal :=
  fun i => score x w l (i 0)

/-- The same outputs as a flat vector. -/
def flat (x : (⟨4, ![262144, 1, 1, 120]⟩ : Shape).Idx → EReal) (w : (⟨4, ![120, 1, 1, 120]⟩ : Shape).Idx → EReal)
    (l : (⟨2, ![1, 120]⟩ : Shape).Idx → EReal) : (⟨1, ![262144]⟩ : Shape).Idx → EReal :=
  fun i => score x w l (i 0)

end Cert.BinNet

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Payload.lean ====
/-
  The arithmetic of one block, read at one entry on the extended reals.

  The body binarizes its 8192 x 120 block of inputs and the 120 x 120 first weight (laid out feature by unit), multiplies
  them, takes the softsign less a half, takes the step of that, and multiplies it into the binarized 120 x 1 second
  weight.  A sign is computed as: where |u| > 0, one with the sign of u, else u itself; that is the sign of u.
  A change of float format is the identity here, and a matrix product into zeros is the plain sum of products.
-/
import proofs.«124904_j16114717294826_2_alg».proof.Proof.Gen.KernelIdeal.Skeleton
import proofs.«124904_j16114717294826_2_alg».proof.Proof.Spec
import proofs.«124904_j16114717294826_2_alg».proof.Proof.LibPlainMatmul
import Idealize.ShloMosaic.Lib.Pipeline.Value

noncomputable section

namespace Cert.BinNet

open Idealize.ShloMosaic Idealize.ShloMosaic.ValueIdx Cert.KernelIdeal Cert.KernelIdeal.Gen

/-- The vector form of the step: half of (the computed sign plus one), narrowed to sixteen bits, is the step of each entry. -/
theorem stepV_eq {s : Shape} (u : FVec Ideal s .f32) (h : FTy.bits .bf16 < FTy.bits .f32) :
    truncf .bf16 (mulf (addf (select (cmpf .ogt (absf u) (broadcast s (Scalar.ofBits .f32 0x00000000#32)))
        (select (cmpf .olt u (constant s .f32 0x00000000#32)) (constant s .f32 0xBF800000#32) (constant s .f32 0x3F800000#32)) u)
      (broadcast s (Scalar.ofBits .f32 0x3F800000#32))) (broadcast s (Scalar.ofBits .f32 0x3F000000#32))) h
      = fun i => step (u i) := by
  funext i
  unfold step
  rw [← Ideal.jnp_sign_eq_sign_f32 (u i)]
  rfl

/-- The softsign less a half of a vector, at one entry. -/
theorem softV_apply {s : Shape} (y : FVec Ideal s .f32) (i : s.Idx) :
    subf (divf y (addf (broadcast s (Scalar.ofBits .f32 0x3F800000#32)) (absf y))) (broadcast s (Scalar.ofBits .f32 0x3F000000#32)) i
      = soft (y i) - Ideal.ofBits .f32 0x3F000000#32 := rfl

/-- The first product contracts the block's feature axis with the weight's leading axis: rows by columns. -/
theorem dotA_eq : dot_S8192x120_S120x120_S8192x120_1_0_0_1_n_n = DotDims.plain 8192 120 120 := rfl
/-- So does the second, into one column. -/
theorem dotB_eq : dot_S8192x120_S120x1_S8192x1_1_0_0_1_n_n = DotDims.plain 8192 120 1 := rfl

/-- The first stage at entry (r, o): the softsign of row r of the binarized block against column o of the binarized
    weight, less a half. -/
theorem pay2_apply (x0 : Vec Ideal S8192x120 .f32) (x1 : Vec Ideal S120x120 .f32) (r : Fin 8192) (o : Fin 120) :
    k0_pay2 x0 x1 (ix2 r o)
      = soft (∑ k : Fin 120, bin (x0 (ix2 r k)) * bin (x1 (ix2 k o))) - Ideal.ofBits .f32 0x3F000000#32 := by
  unfold k0_pay2
  simp only [shapeCast_self, stepV_eq]
  rw [softV_apply, dotA_eq]
  exact congrArg (fun y => soft y - Ideal.ofBits .f32 0x3F000000#32)
    (Cert.PlainMatmul.matmul_zero_apply 8192 120 120 none _ _ r o)

/-- The second stage at row r: the step of each first-stage entry of the row against the binarized second weight,
    the one-column product laid flat. -/
theorem pay1_apply (y : FVec Ideal S8192x120 .f32) (x2 : Vec Ideal S120x1 .f32) (r : Fin 8192) :
    k0_pay1 y x2 (ix1 r) = ∑ o : Fin 120, step (y (ix2 r o)) * bin (x2 (ix2 o 0)) := by
  unfold k0_pay1
  simp only [shapeCast_self, stepV_eq]
  rw [shapeCast_apply _ shapeCasts_S8192x1_S8192 (ix1 r) (ix2 r 0)
    (by rewrite [Shape.rowMajor_val_two, Shape.rowMajor_val_one]; show r.val * 1 + 0 = r.val; omega), dotB_eq]
  exact Cert.PlainMatmul.matmul_zero_apply 8192 120 1 none _ _ r 0

/-- One block of the kernel at row r: the network's output for the block's row r, from the three loaded blocks. -/
theorem block_apply (x0 : Vec Ideal S8192x120 .f32) (x1 : Vec Ideal S120x120 .f32) (x2 : Vec Ideal S120x1 .f32) (r : Fin 8192) :
    k0_pay1 (k0_pay2 x0 x1) x2 (ix1 r)
      = ∑ o : Fin 120, bin (soft (∑ k : Fin 120, bin (x0 (ix2 r k)) * bin (x1 (ix2 k o)))) * bin (x2 (ix2 o 0)) := by
  rw [pay1_apply]
  refine Finset.sum_congr rfl fun o _ => ?_
  rw [pay2_apply]
  rfl

end Cert.BinNet

end
-- ==== Proof.KernelValue.lean ====
/-
  What the kernel leaves in its result, as the network's outputs.

  The grid has 32 points; point t takes rows 8192 t .. 8192 t + 8191 of the flattened input, the whole first weight
  laid out feature by unit, the whole second weight as a column, and writes rows 8192 t .. 8192 t + 8191 of a flat
  vector of 262144 outputs.  The flattened input at (b, k) is the input at (b, 0, 0, k); the first weight laid out
  feature by unit at (k, o) is the weight at (o, 0, 0, k); the second weight as a column at (o, 0) is the weight at (0, o).
  Every row lies in exactly the block of the point b / 8192, so the 32 blocks fill the vector, which the last host
  line re-lays as a column.
-/
import proofs.«124904_j16114717294826_2_alg».proof.Proof.Gen.KernelIdeal.Frame
import proofs.«124904_j16114717294826_2_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.BinNet

open Cert.KernelIdeal Cert.KernelIdeal.Gen

variable (m : (ℓ : Loc nD τ sig) → Buf (Elt Ideal) ℓ) (ρ : Dev nD → PrngReg)

/-- The body's loads and its store start at offset zero on every axis. -/
theorem zeros1 : (![0] : Fin 1 → Nat) = fun _ => 0 := funext fun a => by fin_cases a; rfl
theorem zeros2 : (![0, 0] : Fin 2 → Nat) = fun _ => 0 := funext fun a => by fin_cases a <;> rfl

/-- The body's one store fills its output block with the second stage of the first stage of the loaded blocks. -/
theorem out_eq (x0 : Vec Ideal S8192x120 .f32) (x1 : Vec Ideal S120x120 .f32) (x2 : Vec Ideal S120x1 .f32) :
    out0_3 x0 x1 x2 = k0_pay1 (k0_pay2 x0 x1) x2 := by
  unfold out0_3
  rw [View.canon_unit_zero zeros1]
  simp only [View.ld_unit_zero (S := S8192x120) zeros2, View.ld_unit_zero (S := S120x120) zeros2,
    View.ld_unit_zero (S := S120x1) zeros2]

/-! ## The three arrays the region reads, as the host lines before it leave them -/

/-- The input, its two unit axes dropped. -/
theorem found_x (c : Dev nD) : (V m c main_v0 : S262144x120.Idx → EReal)
    = shapeCast _ (m ((c : Thread nD τ).loc main_arg0)) shapeCasts_S262144x1x1x120_S262144x120 := by
  show StableHlo.after hostOps0 (fun b => m (c, b)) (Proc.devRef .tc main_v0) = _
  after_results <;> rfl

/-- The first weight, its two unit axes dropped and then transposed. -/
theorem found_w (c : Dev nD) : (V m c main_v2 : S120x120.Idx → EReal)
    = transpose S120x120 [1, 0] (shapeCast _ (m ((c : Thread nD τ).loc main_arg1)) shapeCasts_S120x1x1x120_S120x120)
        transposes_S120x120_S120x120_1_0 := by
  show StableHlo.after hostOps0 (fun b => m (c, b)) (Proc.devRef .tc main_v2) = _
  after_results <;> rfl

/-- The second weight, transposed into a column. -/
theorem found_l (c : Dev nD) : (V m c main_v3 : S120x1.Idx → EReal)
    = transpose S120x1 [1, 0] (m ((c : Thread nD τ).loc main_arg2)) transposes_S1x120_S120x1_1_0 := by
  show StableHlo.after hostOps0 (fun b => m (c, b)) (Proc.devRef .tc main_v3) = _
  after_results <;> rfl

/-- The flattened input at (b, k) is the input at (b, 0, 0, k). -/
theorem found_x_apply (c : Dev nD) (b : Fin 262144) (k : Fin 120) :
    (V m c main_v0 : S262144x120.Idx → EReal) (ix2 b k) = m ((c : Thread nD τ).loc main_arg0) (ix4 b 0 0 k) := by
  rw [found_x]
  exact shapeCast_apply _ _ (ix2 b k) (ix4 b 0 0 k)
    (by rewrite [Shape.rowMajor_val_four, Shape.rowMajor_val_two]
        show ((b.val * 1 + 0) * 1 + 0) * 120 + k.val = b.val * 120 + k.val; omega)

/-- The first weight laid out feature by unit, at (k, o), is the weight at (o, 0, 0, k). -/
theorem found_w_apply (c : Dev nD) (k o : Fin 120) :
    (V m c main_v2 : S120x120.Idx → EReal) (ix2 k o) = m ((c : Thread nD τ).loc main_arg1) (ix4 o 0 0 k) := by
  rw [found_w, transpose_apply [1, 0] _ transposes_S120x120_S120x120_1_0 (ix2 k o) (ix2 o k)
    (fun b => by match b with | ⟨0, _⟩ => rfl | ⟨1, _⟩ => rfl)]
  exact shapeCast_apply _ _ (ix2 o k) (ix4 o 0 0 k)
    (by rewrite [Shape.rowMajor_val_four, Shape.rowMajor_val_two]
        show ((o.val * 1 + 0) * 1 + 0) * 120 + k.val = o.val * 120 + k.val; omega)

/-- The second weight as a column, at (o, 0), is the weight at (0, o). -/
theorem found_l_apply (c : Dev nD) (o : Fin 120) :
    (V m c main_v3 : S120x1.Idx → EReal) (ix2 o 0) = m ((c : Thread nD τ).loc main_arg2) (ix2 0 o) := by
  rw [found_l]
  exact transpose_apply [1, 0] _ transposes_S1x120_S120x1_1_0 (ix2 o 0) (ix2 0 o)
    (fun b => by match b with | ⟨0, _⟩ => rfl | ⟨1, _⟩ => rfl)

/-! ## The blocks of a point -/

/-- The printed index maps over the 32 points: the input's and the output's block index is the point, the weights' is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- Row r of the input's block at point t is row 8192 t + r of the input. -/
theorem blk_x (c : Dev nD) (t : Fin cfg0.N) (r : Fin 8192) (k : Fin 120) (hb : t.val * 8192 + r.val < 262144) :
    (iblk m c 0 t : Vec Ideal S8192x120 .f32) (ix2 r k)
      = m ((c : Thread nD τ).loc main_arg0) (ix4 ⟨t.val * 8192 + r.val, hb⟩ 0 0 k) := by
  obtain ⟨e0, e1, -⟩ := idx_facts t
  refine Eq.trans ?_ (found_x_apply m c ⟨t.val * 8192 + r.val, hb⟩ k)
  unfold iblk
  rw [View.read_apply]
  show V m c main_v0 _ = V m c main_v0 _
  congr 1
  funext a
  apply Fin.ext
  match a with
  | ⟨0, _⟩ => show win0_0.index t (0 : Fin 2) * 8192 + 1 * r.val = t.val * 8192 + r.val; rw [e0]; omega
  | ⟨1, _⟩ => show win0_0.index t (1 : Fin 2) * 120 + 1 * k.val = k.val; rw [e1]; omega

/-- The first weight's block at every point is the whole weight, feature by unit. -/
theorem blk_w (c : Dev nD) (t : Fin cfg0.N) (k o : Fin 120) :
    (iblk m c 1 t : Vec Ideal S120x120 .f32) (ix2 k o) = m ((c : Thread nD τ).loc main_arg1) (ix4 o 0 0 k) := by
  obtain ⟨-, -, e0, e1, -⟩ := idx_facts t
  refine Eq.trans ?_ (found_w_apply m c k o)
  unfold iblk
  rw [View.read_apply]
  show V m c main_v2 _ = V m c main_v2 _
  congr 1
  funext a
  apply Fin.ext
  match a with
  | ⟨0, _⟩ => show win0_1.index t (0 : Fin 2) * 120 + 1 * k.val = k.val; rw [e0]; omega
  | ⟨1, _⟩ => show win0_1.index t (1 : Fin 2) * 120 + 1 * o.val = o.val; rw [e1]; omega

/-- The second weight's block at every point is the whole column. -/
theorem blk_l (c : Dev nD) (t : Fin cfg0.N) (o : Fin 120) :
    (iblk m c 2 t : Vec Ideal S120x1 .f32) (ix2 o 0) = m ((c : Thread nD τ).loc main_arg2) (ix2 0 o) := by
  obtain ⟨-, -, -, -, e0, e1, -⟩ := idx_facts t
  refine Eq.trans ?_ (found_l_apply m c o)
  unfold iblk
  rw [View.read_apply]
  show V m c main_v3 _ = V m c main_v3 _
  congr 1
  funext a
  apply Fin.ext
  match a with
  | ⟨0, _⟩ => show win0_2.index t (0 : Fin 2) * 120 + 1 * o.val = o.val; rw [e0]; omega
  | ⟨1, _⟩ => show win0_2.index t (1 : Fin 2) * 1 + 1 * 0 = 0; rw [e1]

/-! ## What a point writes back, and the vector after the last point -/

/-- Point t writes back block t of the flat vector of the network's outputs. -/
theorem flushed_eq (c : Dev nD) (t : Fin cfg0.N) :
    (dats m 0 c).flushed 3 t = ((cfg0.win 3).blk t).view.read (Elt Ideal)
      (flat (m ((c : Thread nD τ).loc main_arg0)) (m ((c : Thread nD τ).loc main_arg1)) (m ((c : Thread nD τ).loc main_arg2))) := by
  show (cfg0.win 3).cut (grid0.coords t) ((dats m 0 c).after 3 t) = _
  rw [after0_3, out_eq]
  obtain ⟨-, -, -, -, -, -, e3⟩ := idx_facts t
  have hN : t.val < 32 := lt_of_lt_of_eq t.isLt (show cfg0.N = 32 from N_0)
  funext y
  obtain ⟨r, rfl⟩ : ∃ r : Fin 8192, y = ix1 r := ⟨y 0, eq_ix1 y⟩
  have hb : t.val * 8192 + r.val < 262144 := by have := r.isLt; omega
  have hemb : ((cfg0.win 3).blk t).view.emb (ix1 r) = ix1 ⟨t.val * 8192 + r.val, hb⟩ := by
    funext a
    apply Fin.ext
    match a with
    | ⟨0, _⟩ => show win0_3.index t (0 : Fin 1) * 8192 + 1 * r.val = t.val * 8192 + r.val; rw [e3]; omega
  rw [View.read_apply, hemb]
  refine (block_apply (iblk m c 0 t) (iblk m c 1 t) (iblk m c 2 t) r).trans ?_
  show _ = score _ _ _ ⟨t.val * 8192 + r.val, hb⟩
  unfold score hidden
  refine Finset.sum_congr rfl fun o _ => ?_
  rw [blk_l m c t o]
  refine congrArg (fun y => bin (soft y) * _) (Finset.sum_congr rfl fun k _ => ?_)
  rw [blk_x m c t r k hb, blk_w m c t k o]

/-- A row lies in point t's block exactly when it is one of rows 8192 t .. 8192 t + 8191. -/
theorem mem_blk (t : Fin cfg0.N) (i : S262144.Idx) :
    i ∈ ((cfg0.win 3).blk t).view.set
      ↔ ∀ a : Fin 1, win0_3.index t a * S8192.size a ≤ (i a).val ∧ (i a).val < win0_3.index t a * S8192.size a + S8192.size a := by
  show i ∈ ((View.whole main_v4).slice (win0_3.rect t)).set ↔ _
  rw [View.set_slice_whole, Rect.mem_set_unit]
  exact Iff.rfl

/-- Every row b is written back by the point b / 8192. -/
theorem cover (i : S262144.Idx) :
    ∃ t : Fin cfg0.N, (cfg0.win 3).flush t = true ∧ i ∈ ((cfg0.win 3).blk t).view.set := by
  have hi : (i 0).val < 262144 := (i 0).isLt
  have hN : cfg0.N = 32 := N_0
  have ht : (i 0).val / 8192 < cfg0.N := by rw [hN]; omega
  refine ⟨⟨(i 0).val / 8192, ht⟩, flush0_3 _, ?_⟩
  rw [mem_blk]
  obtain ⟨-, -, -, -, -, -, e3⟩ := idx_facts ⟨(i 0).val / 8192, ht⟩
  intro a
  match a with
  | ⟨0, _⟩ =>
    show win0_3.index ⟨(i 0).val / 8192, ht⟩ (0 : Fin 1) * 8192 ≤ (i 0).val
      ∧ (i 0).val < win0_3.index ⟨(i 0).val / 8192, ht⟩ (0 : Fin 1) * 8192 + 8192
    rw [e3]
    show (i 0).val / 8192 * 8192 ≤ (i 0).val ∧ (i 0).val < (i 0).val / 8192 * 8192 + 8192
    omega

/-- After the last point the result vector holds the network's outputs. -/
theorem final (c : Dev nD) : (dats m 0 c).arrAt 3 cfg0.N
    = flat (m ((c : Thread nD τ).loc main_arg0)) (m ((c : Thread nD τ).loc main_arg1)) (m ((c : Thread nD τ).loc main_arg2)) :=
  (dats m 0 c).arrAt_eq_of_cover 3 _ (fun t _ => flushed_eq m c t) cover

/-- The last host line re-lays the vector as a column: row b of the column is entry b of the vector. -/
theorem result_eq (c : Dev nD) : Pipeline.afterTail₀ cfgs (dats m) 0 (V0 m) [hostOps1] c main_v5
    = column (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  rw [(Pipeline.withArrays_arr spec0 launch0.win.arr_inj c _ _ 3).trans (final m c)]
  funext (i : S262144x1.Idx)
  obtain ⟨b, z, rfl⟩ : ∃ (b : Fin 262144) (z : Fin 1), i = ix2 b z := ⟨i 0, i 1, eq_ix2 i⟩
  exact shapeCast_apply _ _ (ix2 b z) (ix1 b)
    (by rewrite [Shape.rowMajor_val_one, Shape.rowMajor_val_two]
        show b.val = b.val * 1 + z.val; have := z.isLt; omega)

/-- The kernel's run: it terminates with its result at the network's column of outputs and its arguments unchanged. -/
theorem run : θ_run defs (onTc (τ := τ) (main (F := Ideal))) ⟨m, fun _ => 0, ρ⟩ fun r => ∀ c : Dev nD,
      r.2.mem ((c : Thread nD τ).loc main_v5)
        = column (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.BinNet

end
-- ==== Proof.RefValue.lean ====
/-
  The reference program's result, read one operation at a time, is the network's column of outputs.

  The reference binarizes the input and both weights entry by entry, flattens the unit axes of the input and of the
  first weight, contracts the feature axis of both, applies the softsign, binarizes, and contracts the hidden axis
  against the second weight's one row.
-/
import proofs.«124904_j16114717294826_2_alg».proof.Proof.Gen.ReferenceIdeal.Read
import proofs.«124904_j16114717294826_2_alg».proof.Proof.Spec

noncomputable section

namespace Cert.BinNet

open Idealize.ShloMosaic Idealize.ShloMosaic.ValueIdx Cert.ReferenceIdeal Cert.ReferenceIdeal.Read

/-- The binarized input at one entry. -/
theorem ref_bin_x (x0 : (⟨S262144x1x1x120, .f32⟩ : BufTy).Contents (Elt Ideal)) (j : S262144x1x1x120.Idx) :
    val_main_v6 (F := Ideal) x0 j = bin (x0 j) := by
  rw [val_main_v6_apply, val_main_v4_apply, val_main_v2_apply, val_main_v1_apply, val_main_v0_apply, val_main_v3_apply,
    val_main_v5_apply, val_main_cst_apply, val_main_cst_0_apply, val_main_cst_1_apply]
  rfl

/-- The binarized first weight at one entry. -/
theorem ref_bin_w (x1 : (⟨S120x1x1x120, .f32⟩ : BufTy).Contents (Elt Ideal)) (j : S120x1x1x120.Idx) :
    val_main_v13 (F := Ideal) x1 j = bin (x1 j) := by
  rw [val_main_v13_apply, val_main_v11_apply, val_main_v9_apply, val_main_v8_apply, val_main_v7_apply, val_main_v10_apply,
    val_main_v12_apply, val_main_cst_2_apply, val_main_cst_3_apply, val_main_cst_4_apply]
  rfl

/-- The binarized second weight at one entry. -/
theorem ref_bin_l (x2 : (⟨S1x120, .f32⟩ : BufTy).Contents (Elt Ideal)) (j : S1x120.Idx) :
    val_main_v34 (F := Ideal) x2 j = bin (x2 j) := by
  rw [val_main_v34_apply, val_main_v32_apply, val_main_v30_apply, val_main_v29_apply, val_main_v28_apply, val_main_v31_apply,
    val_main_v33_apply, val_main_cst_9_apply, val_main_cst_10_apply, val_main_cst_11_apply]
  rfl

/-- The binarized softsign of the first product at one entry. -/
theorem ref_soft (x0 : (⟨S262144x1x1x120, .f32⟩ : BufTy).Contents (Elt Ideal)) (x1 : (⟨S120x1x1x120, .f32⟩ : BufTy).Contents (Elt Ideal))
    (j : S262144x120.Idx) :
    val_main_v27 (F := Ideal) x0 x1 j = bin (soft (val_main_v16 (F := Ideal) x0 x1 j)) := by
  rw [val_main_v27_apply, val_main_v25_apply, val_main_v23_apply, val_main_v22_apply, val_main_v20_apply, val_main_v19_apply,
    val_main_v17_apply, val_main_v18_apply, val_main_v21_apply, val_main_v24_apply, val_main_v26_apply,
    val_main_cst_5_apply, val_main_cst_6_apply, val_main_cst_7_apply, val_main_cst_8_apply]
  rfl

/-- The first product at (b, o) is hidden unit o of row b: flattening [b, 0, 0, k] to [b, k] keeps b and k. -/
theorem ref_hidden (x0 : (⟨S262144x1x1x120, .f32⟩ : BufTy).Contents (Elt Ideal)) (x1 : (⟨S120x1x1x120, .f32⟩ : BufTy).Contents (Elt Ideal))
    (b : Fin 262144) (o : Fin 120) :
    val_main_v16 (F := Ideal) x0 x1 (ix2 b o) = hidden x0 x1 b o := by
  rw [val_main_v16_apply]
  unfold hidden
  refine Finset.sum_congr rfl fun k _ => ?_
  rw [val_main_v14_apply, val_main_v15_apply, ref_bin_x, ref_bin_w]
  have e0 : idx_main_v14 (lidx_main_v16 (ix2 b o) k) = ix4 b 0 0 k := funext fun a => Fin.ext (by
    match a with
    | ⟨0, _⟩ => show (b.val * 120 + k.val) / 120 = b.val; have := k.isLt; omega
    | ⟨1, _⟩ => rfl
    | ⟨2, _⟩ => rfl
    | ⟨3, _⟩ => show (b.val * 120 + k.val) % 120 = k.val; have := k.isLt; omega)
  have e1 : idx_main_v15 (ridx_main_v16 (ix2 b o) k) = ix4 o 0 0 k := funext fun a => Fin.ext (by
    match a with
    | ⟨0, _⟩ => show (o.val * 120 + k.val) / 120 = o.val; have := k.isLt; omega
    | ⟨1, _⟩ => rfl
    | ⟨2, _⟩ => rfl
    | ⟨3, _⟩ => show (o.val * 120 + k.val) % 120 = k.val; have := k.isLt; omega)
  rw [e0, e1]

/-- The reference's result is the network's column of outputs. -/
theorem ref_column (x0 : (⟨S262144x1x1x120, .f32⟩ : BufTy).Contents (Elt Ideal)) (x1 : (⟨S120x1x1x120, .f32⟩ : BufTy).Contents (Elt Ideal))
    (x2 : (⟨S1x120, .f32⟩ : BufTy).Contents (Elt Ideal)) :
    val_main_v35 (F := Ideal) x0 x1 x2 = column x0 x1 x2 := by
  funext (i : S262144x1.Idx)
  obtain ⟨b, z, rfl⟩ : ∃ (b : Fin 262144) (z : Fin 1), i = ix2 b z := ⟨i 0, i 1, eq_ix2 i⟩
  rw [val_main_v35_apply]
  unfold column score
  refine Finset.sum_congr rfl fun o _ => ?_
  have el : lidx_main_v35 (ix2 b z) o = ix2 b o := funext fun a => Fin.ext (by
    match a with
    | ⟨0, _⟩ => rfl
    | ⟨1, _⟩ => rfl)
  have er : ridx_main_v35 (ix2 b z) o = ix2 0 o := funext fun a => Fin.ext (by
    match a with
    | ⟨0, _⟩ => show z.val = 0; have := z.isLt; omega
    | ⟨1, _⟩ => rfl)
  rw [el, er, ref_soft, ref_hidden, ref_bin_l]

end Cert.BinNet

end
-- ==== Proof.lean ====
/-
  The kernel computes a two-layer binarized network and so does its reference.

  Both binarize the input, the first weight and the second weight entry by entry (a binarized number is
  (sign (a - 1/2) + 1) * 1/2), multiply row b of the input into the 120 rows of the first weight, take the softsign
  y / (1 + |y|) of each of the 120 products, binarize them, and multiply them into the one row of the second weight:
  one number per input row (Proof/Spec.lean).  The kernel does it 8192 rows at a time over 32 grid points, on a
  flattened input and on weights transposed by the host beforehand, and writes a flat vector that the host re-lays as
  a column (Proof/Payload.lean: one block at one row; Proof/KernelValue.lean: the blocks, and the vector they fill);
  the reference does it on the whole arrays (Proof/RefValue.lean).  On the extended reals a change of float format
  is the identity, a matrix product into zeros and the host's contraction are the same sum of the same products in
  the same order of factors, and the kernel's sign (where |u| > 0, one carrying the sign of u, else u) is the sign,
  so the two results are the same function of the arguments entry by entry; no finiteness of the inputs is used.
  The kernel's four sign computations are the four entries of the idealization's ledger.
-/
import proofs.«124904_j16114717294826_2_alg».proof.Defs
import proofs.«124904_j16114717294826_2_alg».proof.Proof.Gen.Kernel
import proofs.«124904_j16114717294826_2_alg».proof.Proof.Gen.Kernel.Skeleton
import proofs.«124904_j16114717294826_2_alg».proof.Proof.Gen.Kernel.Launch
import proofs.«124904_j16114717294826_2_alg».proof.Proof.Gen.Kernel.Points
import proofs.«124904_j16114717294826_2_alg».proof.Proof.Gen.Kernel.Frame
import proofs.«124904_j16114717294826_2_alg».proof.Proof.Gen.KernelIdeal
import proofs.«124904_j16114717294826_2_alg».proof.Proof.Gen.KernelIdeal.Skeleton
import proofs.«124904_j16114717294826_2_alg».proof.Proof.Gen.KernelIdeal.Launch
import proofs.«124904_j16114717294826_2_alg».proof.Proof.Gen.KernelIdeal.Points
import proofs.«124904_j16114717294826_2_alg».proof.Proof.Gen.KernelIdeal.Frame
import proofs.«124904_j16114717294826_2_alg».proof.Proof.Gen.ReferenceIdeal
import proofs.«124904_j16114717294826_2_alg».proof.Proof.Gen.Pre_finite_inputs
import proofs.«124904_j16114717294826_2_alg».proof.Proof.Gen.ReferenceIdeal.Run
import proofs.«124904_j16114717294826_2_alg».proof.Proof.Gen.ReferenceIdeal.Read
import proofs.«124904_j16114717294826_2_alg».proof.Proof.KernelValue
import proofs.«124904_j16114717294826_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The four places where the kernel reads a sign bit to build one with the sign of u: on the block of inputs, on the
    first weight, on the softsigns, and on the second weight. -/
theorem preserves : Cert.preserves_Kernel_KernelIdeal :=
  ⟨IdealRules.sign_bit.statement Cert.KernelIdeal.S8192x120 .f32,
    IdealRules.sign_bit.statement Cert.KernelIdeal.S120x120 .f32,
    IdealRules.sign_bit.statement Cert.KernelIdeal.S8192x120 .f32,
    IdealRules.sign_bit.statement Cert.KernelIdeal.S120x1 .f32⟩

/-- Both programs end with the network's column of outputs of the same arguments. -/
theorem algebraic : Cert.algebraic_KernelIdeal_ReferenceIdeal := by
  intro m ρ m' ρ' _ hagree
  refine ⟨_, Cert.BinNet.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.BinNet.ref_column, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
